-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the kernel program with its result named.

  The program is four segments: the host operations that form the first neighbour mean and lay out the first layer's
  parameters, the first dense call, the host operations that form the second neighbour mean from the first call's result
  and lay out the second layer's parameters, the second dense call. Every weakly fair execution goes through them in
  order; after the last one every buffer of the core that is not a call's own staging holds the contents the four
  segments fold from the launch memory (`Gen.W4`). That is true of the result buffer as of the eight arguments, which
  the fold walks back to the launch memory: the run below states both.
-/
import proofs.«133926_j60945585930926_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    segments fold from the launch memory and the eight arguments as launched. -/
theorem run : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.Spec.lean ====
/-
  One GraphSAGE layer after the neighbour mean, as a function of rows.

  For a node with feature row `hr` and aggregated neighbour row `ar` (both of length 128), weights `wl`, `wr` given
  ALREADY TRANSPOSED (entry `(k, c)` multiplies input feature `k` into output feature `c`) and bias `b`:

    lin c = (Σ_k ar k · wl (k, c) + b c) + Σ_k hr k · wr (k, c)
    out c = max (lin c / max (sqrt (Σ_c' lin c' · lin c')) ε) 0

  over the extended reals, `ε` the binary32 word `0x2B8CBCCC` and `0` the zero word, division and square root the
  ideal instance's. The additions are grouped as both programs group them, so no law of the extended reals that fails at
  the infinities is ever used: the two programs are equal entry by entry without any finiteness.
-/
import Idealize.ShloMosaic.PureOps.Ideal
import Idealize.ShloMosaic.Lib.ValueIdx

noncomputable section

namespace Cert.Sage

open Idealize.ShloMosaic Idealize.ShloMosaic.ValueIdx

/-- The affine part of a row: `ar · wl + b + hr · wr`, at output feature `c`. -/
def lin (hr ar : Fin 128 → EReal) (wl wr : (⟨2, ![128, 128]⟩ : Shape).Idx → EReal) (b : Fin 128 → EReal) (c : Fin 128) : EReal :=
  ((∑ k : Fin 128, ar k * wl (ix2 k c)) + b c) + ∑ k : Fin 128, hr k * wr (ix2 k c)

/-- The row after L2 normalisation (norm clamped below by `ε`) and ReLU. -/
def rowOut (hr ar : Fin 128 → EReal) (wl wr : (⟨2, ![128, 128]⟩ : Shape).Idx → EReal) (b : Fin 128 → EReal) (c : Fin 128) : EReal :=
  max (Ideal.div (lin hr ar wl wr b c)
        (max (Ideal.sqrt (∑ c' : Fin 128, lin hr ar wl wr b c' * lin hr ar wl wr b c')) (Ideal.ofBits .f32 0x2B8CBCCC#32)))
      (Ideal.ofBits .f32 0x00000000#32)

/-- The layer on an `[n, 128]` array of node rows: row `r` of the result is `rowOut` of row `r` of `h` and of `a`. -/
def layer {n : Nat} (h a : (⟨2, ![n, 128]⟩ : Shape).Idx → EReal) (wl wr : (⟨2, ![128, 128]⟩ : Shape).Idx → EReal)
    (b : Fin 128 → EReal) : (⟨2, ![n, 128]⟩ : Shape).Idx → EReal :=
  fun i => rowOut (fun k => h (ix2 (i 0) k)) (fun k => a (ix2 (i 0) k)) wl wr b (i 1)

theorem layer_apply {n : Nat} (h a : (⟨2, ![n, 128]⟩ : Shape).Idx → EReal) (wl wr : (⟨2, ![128, 128]⟩ : Shape).Idx → EReal)
    (b : Fin 128 → EReal) (r : Fin n) (c : Fin 128) :
    layer h a wl wr b (ix2 r c) = rowOut (fun k => h (ix2 r k)) (fun k => a (ix2 r k)) wl wr b c := rfl

end Cert.Sage

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.Payload.lean ====
/-
  What the dense kernel's body stores, read at an entry.

  The body loads a tile of node rows `x0` (4000 × 128), the tile of aggregated neighbour rows `x1`, the two weight
  matrices `x2`, `x3` (already transposed on the host) and the bias as a 1 × 128 row `x4`, and stores

    max (o / max (sqrt (Σ_c' o · o)) ε) 0,   o = (x1 · x2 + x4) + x0 · x3

  row by row. At the ideal instance the casts to bf16 are the identity, a matrix product into a zero accumulator is
  the plain sum over the contracted axis, and the lane sum is the row's sum; so entry `(p, q)` of the stored tile is
  `Sage.rowOut` of row `p` of the two tiles. The second call's body differs from the first by one identity cast.
-/
import proofs.«133926_j60945585930926_1_alg».proof.Proof.Gen.KernelIdeal.Skeleton
import proofs.«133926_j60945585930926_1_alg».proof.Proof.Spec
import proofs.«133926_j60945585930926_1_alg».proof.Proof.LibKeepdims
import proofs.«133926_j60945585930926_1_alg».proof.Proof.LibMatProd
import proofs.«133926_j60945585930926_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Sage

/-! ## The kernel's matrix product at an entry -/

theorem dot_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A tile times a weight matrix, into the zero accumulator, at `(p, q)`: the sum over the 128 input features. -/
theorem mm_apply {φ₁ φ₂ : FTy} (L : FVec Ideal S4000x128 φ₁) (R : FVec Ideal S128x128 φ₂) (p : Fin 4000) (q : Fin 128) :
    matmul dot_S4000x128_S128x128_S4000x128_1_0_0_1_n_n none L R (constant S4000x128 .f32 0x00000000#32) (ix2 p q)
      = ∑ k : Fin 128, L (ix2 p k) * R (ix2 k q) := by
  simp only [matmul]
  rw [Ideal.matmul_constant_zero_apply]
  exact Cert.Gcn.Dense.sum_contr_eq_prod dot_S4000x128_S128x128_S4000x128_1_0_0_1_n_n rfl rfl dot_lhs0 dot_lhs1 dot_rhs0 dot_rhs1
    L R (ix2 p q)

/-! ## The two halves of the body -/

/-- The affine part of the tile: `(x1 · x2 + x4) + x0 · x3`, as the body writes it. -/
def pre (x0 x1 : Vec Ideal S4000x128 .f32) (x2 x3 : Vec Ideal S128x128 .f32) (x4 : Vec Ideal S1x128 .f32) : FVec Ideal S4000x128 .f32 :=
  addf (addf (matmul dot_S4000x128_S128x128_S4000x128_1_0_0_1_n_n none
          (truncf .bf16 (shapeCast S4000x128 x1 shapeCasts_S4000x128_S4000x128) bitsLt_bf16_f32)
          (truncf .bf16 (shapeCast S128x128 x2 shapeCasts_S128x128_S128x128) bitsLt_bf16_f32) (constant S4000x128 .f32 0x00000000#32))
        (broadcastTo S4000x128 (shapeCast S1x128 x4 shapeCasts_S1x128_S1x128) broadcasts_S1x128_S4000x128))
    (matmul dot_S4000x128_S128x128_S4000x128_1_0_0_1_n_n none (truncf .bf16 x0 bitsLt_bf16_f32)
      (truncf .bf16 (shapeCast S128x128 x3 shapeCasts_S128x128_S128x128) bitsLt_bf16_f32) (constant S4000x128 .f32 0x00000000#32))

/-- Normalising each row by its clamped L2 norm, then ReLU, as the body writes it. -/
def post (v : FVec Ideal S4000x128 .f32) : FVec Ideal S4000x128 .f32 :=
  maximumf (divf v (broadcastTo S4000x128
      (maximumf (sqrt (shapeCast S4000x1 (multiReduction .add [1] S4000 (mulf v v) 0x00000000#32 reduces_S4000x128_S4000 (.inl rfl) rfl)
          shapeCasts_S4000_S4000x1)) (broadcast S4000x1 (Scalar.ofBits .f32 0x2B8CBCCC#32)))
      broadcasts_S4000x1_S4000x128))
    (broadcast S4000x128 (Scalar.ofBits .f32 0x00000000#32))

theorem pay0_eq (x0 x1 : Vec Ideal S4000x128 .f32) (x2 x3 : Vec Ideal S128x128 .f32) (x4 : Vec Ideal S1x128 .f32) :
    k0_pay1 (F := Ideal) x0 x1 x2 x3 x4 = post (pre x0 x1 x2 x3 x4) := rfl

theorem pay1_eq (x0 x1 : Vec Ideal S4000x128 .f32) (x2 x3 : Vec Ideal S128x128 .f32) (x4 : Vec Ideal S1x128 .f32) :
    k1_pay1 (F := Ideal) x0 x1 x2 x3 x4 = post (pre x0 x1 x2 x3 x4) := by
  unfold k1_pay1 post pre
  simp only [shapeCast_self]

theorem pre_apply (x0 x1 : Vec Ideal S4000x128 .f32) (x2 x3 : Vec Ideal S128x128 .f32) (x4 : Vec Ideal S1x128 .f32)
    (p : Fin 4000) (c : Fin 128) :
    pre x0 x1 x2 x3 x4 (ix2 p c)
      = lin (fun k => x0 (ix2 p k)) (fun k => x1 (ix2 p k)) x2 x3 (fun c' => x4 (ix2 (0 : Fin 1) c')) c := by
  unfold pre lin
  rw [addf_apply, addf_apply, mm_apply, mm_apply, broadcastTo_1b_ab_apply]
  simp only [truncf_apply, shapeCast_self]

/-- The lane sum of a tile at row `p` is the row's sum (the accumulator word is the zero word). -/
theorem rowSum0 (v : FVec Ideal S4000x128 .f32) (hφ : FKind.Formats .f32) (hacc : (0x00000000#32 : BitVec 32) = 0x00000000#32)
    (p : Fin 4000) :
    multiReduction .add [1] S4000 v 0x00000000#32 reduces_S4000x128_S4000 hφ hacc (ix1 p) = ∑ k : Fin 128, v (ix2 p k) :=
  Cert.RowOps.rowSum_apply v 0x00000000#32 reduces_S4000x128_S4000 hφ hacc p

theorem post_apply (v : FVec Ideal S4000x128 .f32) (p : Fin 4000) (q : Fin 128) :
    post v (ix2 p q)
      = max (Ideal.div (v (ix2 p q)) (max (Ideal.sqrt (∑ c' : Fin 128, v (ix2 p c') * v (ix2 p c'))) (Ideal.ofBits .f32 0x2B8CBCCC#32)))
          (Ideal.ofBits .f32 0x00000000#32) := by
  unfold post
  rw [maximumf_apply, divf_apply, Cert.Keepdims.broadcastTo_a1_ab_apply, maximumf_apply]
  show max (Ideal.div (v (ix2 p q)) (max (Ideal.sqrt (shapeCast S4000x1 _ shapeCasts_S4000_S4000x1 (ix2 p (0 : Fin 1)))) _)) _ = _
  rw [Cert.Keepdims.shapeCast_a_a1_apply, rowSum0]
  rfl

/-- Entry `(p, q)` of the tile the body stores is the layer's row function of row `p` of the loaded tiles. -/
theorem pay_apply (x0 x1 : Vec Ideal S4000x128 .f32) (x2 x3 : Vec Ideal S128x128 .f32) (x4 : Vec Ideal S1x128 .f32)
    (p : Fin 4000) (q : Fin 128) :
    post (pre x0 x1 x2 x3 x4) (ix2 p q)
      = rowOut (fun k => x0 (ix2 p k)) (fun k => x1 (ix2 p k)) x2 x3 (fun c' => x4 (ix2 (0 : Fin 1) c')) q := by
  rw [post_apply]
  unfold rowOut
  simp only [pre_apply]

/-- A stored tile against the layer on the whole arrays: if row `j 0` of the two loaded row tiles is row `i 0` of the
    arrays `H` and `A`, the loaded weights and bias are the arrays `WL`, `WR`, `B2`, and `j` and `i` name the same
    output feature, then the tile's entry `j` is the layer's entry `i`. -/
theorem tile_eq (x0 x1 : Vec Ideal S4000x128 .f32) (x2 x3 : Vec Ideal S128x128 .f32) (x4 : Vec Ideal S1x128 .f32)
    (H A : S100000x128.Idx → EReal) (WL WR : S128x128.Idx → EReal) (B2 : S1x128.Idx → EReal)
    (j : S4000x128.Idx) (i : S100000x128.Idx)
    (h0 : ∀ k : Fin 128, x0 (ix2 (j 0) k) = H (ix2 (i 0) k)) (h1 : ∀ k : Fin 128, x1 (ix2 (j 0) k) = A (ix2 (i 0) k))
    (h2 : x2 = WL) (h3 : x3 = WR) (h4 : x4 = B2) (hc : (j 1).val = (i 1).val) :
    post (pre x0 x1 x2 x3 x4) j = layer (n := 100000) H A WL WR (fun c' => B2 (ix2 (0 : Fin 1) c')) i := by
  obtain ⟨p, q, rfl⟩ : ∃ (p : Fin 4000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : q = s := Fin.ext hc
  subst hs h2 h3 h4
  rw [pay_apply, layer_apply]
  have e0 : (fun k => x0 (ix2 p k)) = fun k => H (ix2 r k) := funext h0
  have e1 : (fun k => x1 (ix2 p k)) = fun k => A (ix2 r k) := funext h1
  rw [e0, e1]

end Cert.KernelIdeal.Body

end
-- ==== Proof.Region0.lean ====
/-
  The first dense call on the whole arrays.

  The call runs the body at 25 grid points; point `t` stages rows `4000 t … 4000 t + 3999` of the node array and of the
  neighbour-mean array, the two weight matrices and the bias row whole, and writes the body's tile back to the same rows
  of the output array. The body's tile is the layer's row function row by row, so point `t` writes block `t` of ONE
  function of the arrays the call finds — `Sage.layer` of them —, the 25 blocks tile the 100000 rows, and after the
  call the output array is that function. Stated for any contents `V` the call may be entered with.
-/
import proofs.«133926_j60945585930926_1_alg».proof.Proof.Gen.KernelIdeal.Frame
import proofs.«133926_j60945585930926_1_alg».proof.Proof.Payload
import Idealize.ShloMosaic.Lib.Pipeline.Value

set_option maxRecDepth 16384

noncomputable section

namespace Cert.KernelIdeal.Region0

open Cert.KernelIdeal Cert.KernelIdeal.Gen Cert.KernelIdeal.Body Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Which block each window stages at point `t`: the two row tiles and the output move with `t` along the rows, the
    weights and the bias stay (decided over the 25 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the output array ends holding: the layer of the arrays the call is entered with. -/
abbrev G (c : Dev nD) : S100000x128.Idx → EReal :=
  layer (n := 100000) (V c main_arg0) (V c main_v22) (V c main_v23) (V c main_v24) (fun c' => V c main_v25 (ix2 (0 : Fin 1) c'))

/-- WHAT POINT `t` WRITES BACK is block `t` of the layer of the arrays as the call finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  rw [pay0_eq]
  obtain ⟨a00, a01, a10, a11, a20, a21, a30, a31, a40, a41, a50, a51⟩ := idx_facts t
  funext j
  show post (pre (iblk0 V c 0 t) (iblk0 V c 1 t) (iblk0 V c 2 t) (iblk0 V c 3 t) (iblk0 V c 4 t)) j
    = G V c (((cfg0.win 5).blk t).view.emb j)
  refine tile_eq (iblk0 V c 0 t) (iblk0 V c 1 t) (iblk0 V c 2 t) (iblk0 V c 3 t) (iblk0 V c 4 t)
    (V c main_arg0) (V c main_v22) (V c main_v23) (V c main_v24) (V c main_v25) j (((cfg0.win 5).blk t).view.emb j)
    (fun k => ?_) (fun k => ?_) ?_ ?_ ?_ ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 4000 + 1 * (j 0).val = win0_5.index t (0 : Fin 2) * 4000 + 1 * (j 0).val; omega
    | ⟨1, _⟩ => show win0_0.index t (1 : Fin 2) * 128 + 1 * k.val = k.val; omega
  · show V c main_v22 (((cfg0.win 1).blk t).view.emb (ix2 (j 0) k)) = V c main_v22 (ix2 ((((cfg0.win 5).blk t).view.emb j) 0) k)
    refine congrArg (V c main_v22) (funext fun a => Fin.ext ?_)
    match a with
    | ⟨0, _⟩ => show win0_1.index t (0 : Fin 2) * 4000 + 1 * (j 0).val = win0_5.index t (0 : Fin 2) * 4000 + 1 * (j 0).val; omega
    | ⟨1, _⟩ => show win0_1.index t (1 : Fin 2) * 128 + 1 * k.val = k.val; omega
  · funext y
    show V c main_v23 (((cfg0.win 2).blk t).view.emb y) = V c main_v23 y
    refine congrArg (V c main_v23) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v24 (((cfg0.win 3).blk t).view.emb y) = V c main_v24 y
    refine congrArg (V c main_v24) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v25 (((cfg0.win 4).blk t).view.emb y) = V c main_v25 y
    refine congrArg (V c main_v25) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show (j 1).val = win0_5.index t (1 : Fin 2) * 128 + 1 * (j 1).val
    omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v26).slice (win0_5.rect t)).set ↔ _
  rw [View.set_slice_whole, Rect.mem_set_unit]
  exact Iff.rfl

/-- The 25 blocks tile the array: row `r` is in the block of point `r / 4000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, a50, a51⟩ := idx_facts ⟨(i 0).val / 4000, ht⟩
  refine ⟨⟨(i 0).val / 4000, ht⟩, flush0_5 _, ?_⟩
  rw [mem_blk]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [a50]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [a51]
    omega

/-- THE OUTPUT ARRAY after the call: the layer of the arrays the call was entered with. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second dense call on the whole arrays.

  As the first call: the body runs at 25 grid points; point `t` stages rows `4000 t … 4000 t + 3999` of the node array and of the
  neighbour-mean array, the two weight matrices and the bias row whole, and writes the body's tile back to the same rows
  of the output array. The body's tile is the layer's row function row by row, so point `t` writes block `t` of ONE
  function of the arrays the call finds — `Sage.layer` of them —, the 25 blocks tile the 100000 rows, and after the
  call the output array is that function. Stated for any contents `V` the call may be entered with.
-/
import proofs.«133926_j60945585930926_1_alg».proof.Proof.Gen.KernelIdeal.Frame
import proofs.«133926_j60945585930926_1_alg».proof.Proof.Payload
import Idealize.ShloMosaic.Lib.Pipeline.Value

set_option maxRecDepth 16384

noncomputable section

namespace Cert.KernelIdeal.Region1

open Cert.KernelIdeal Cert.KernelIdeal.Gen Cert.KernelIdeal.Body Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Which block each window stages at point `t`: the two row tiles and the output move with `t` along the rows, the
    weights and the bias stay (decided over the 25 points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the output array ends holding: the layer of the arrays the call is entered with. -/
abbrev G (c : Dev nD) : S100000x128.Idx → EReal :=
  layer (n := 100000) (V c main_v26) (V c main_v45) (V c main_v46) (V c main_v47) (fun c' => V c main_v48 (ix2 (0 : Fin 1) c'))

/-- WHAT POINT `t` WRITES BACK is block `t` of the layer of the arrays as the call finds them. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  rw [pay1_eq]
  obtain ⟨a00, a01, a10, a11, a20, a21, a30, a31, a40, a41, a50, a51⟩ := idx_facts t
  funext j
  show post (pre (iblk1 V c 0 t) (iblk1 V c 1 t) (iblk1 V c 2 t) (iblk1 V c 3 t) (iblk1 V c 4 t)) j
    = G V c (((cfg1.win 5).blk t).view.emb j)
  refine tile_eq (iblk1 V c 0 t) (iblk1 V c 1 t) (iblk1 V c 2 t) (iblk1 V c 3 t) (iblk1 V c 4 t)
    (V c main_v26) (V c main_v45) (V c main_v46) (V c main_v47) (V c main_v48) j (((cfg1.win 5).blk t).view.emb j)
    (fun k => ?_) (fun k => ?_) ?_ ?_ ?_ ?_
  · show V c main_v26 (((cfg1.win 0).blk t).view.emb (ix2 (j 0) k)) = V c main_v26 (ix2 ((((cfg1.win 5).blk t).view.emb j) 0) k)
    refine congrArg (V c main_v26) (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 128 + 1 * k.val = k.val; omega
  · show V c main_v45 (((cfg1.win 1).blk t).view.emb (ix2 (j 0) k)) = V c main_v45 (ix2 ((((cfg1.win 5).blk t).view.emb j) 0) k)
    refine congrArg (V c main_v45) (funext fun a => Fin.ext ?_)
    match a with
    | ⟨0, _⟩ => show win1_1.index t (0 : Fin 2) * 4000 + 1 * (j 0).val = win1_5.index t (0 : Fin 2) * 4000 + 1 * (j 0).val; omega
    | ⟨1, _⟩ => show win1_1.index t (1 : Fin 2) * 128 + 1 * k.val = k.val; omega
  · funext y
    show V c main_v46 (((cfg1.win 2).blk t).view.emb y) = V c main_v46 y
    refine congrArg (V c main_v46) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v47 (((cfg1.win 3).blk t).view.emb y) = V c main_v47 y
    refine congrArg (V c main_v47) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v48 (((cfg1.win 4).blk t).view.emb y) = V c main_v48 y
    refine congrArg (V c main_v48) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show (j 1).val = win1_5.index t (1 : Fin 2) * 128 + 1 * (j 1).val
    omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v49).slice (win1_5.rect t)).set ↔ _
  rw [View.set_slice_whole, Rect.mem_set_unit]
  exact Iff.rfl

/-- The 25 blocks tile the array: row `r` is in the block of point `r / 4000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, -, -, -, -, -, -, a50, a51⟩ := idx_facts ⟨(i 0).val / 4000, ht⟩
  refine ⟨⟨(i 0).val / 4000, ht⟩, flush1_5 _, ?_⟩
  rw [mem_blk]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [a50]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [a51]
    omega

/-- THE OUTPUT ARRAY after the call: the layer of the arrays the call was entered with. -/
theorem final (c : Dev nD) : (dat1 V c).arrAt 5 cfg1.N = G V c :=
  (dat1 V c).arrAt_eq_of_cover 5 (G V c) (fun t _ => flushed_eq V c t) cover

end Cert.KernelIdeal.Region1

end
-- ==== Proof.RefValue.lean ====
/-
  The reference, one layer at a time.

  Its first layer's result (the stage after the first ReLU) is, entry by entry, the row function `Sage.rowOut` of the
  node's own row of `x`, the same row of the neighbour mean, the two transposed weight matrices and the bias: the two
  host contractions are plain sums over the 128 input features, the norm is the square root of the row's sum of
  squares (the sum starts from the zero word), and the bias reaches row `p` through two broadcasts. Its second layer
  is the first layer's text again, applied to the first layer's result with the second layer's parameters, the edge
  list shared; that is an equation between the stages as they are defined, no arithmetic in it.
-/
import proofs.«133926_j60945585930926_1_alg».proof.Proof.Gen.ReferenceIdeal.Read
import proofs.«133926_j60945585930926_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Sage

/-! ## Where each operation reads its operands -/

theorem lidx24 (p : Fin 100000) (c k : Fin 128) : lidx_main_v24 (ix2 p c) k = ix2 p k :=
  funext fun a => Fin.ext (by match a with | ⟨0, _⟩ => rfl | ⟨1, _⟩ => rfl)
theorem ridx24 (p : Fin 100000) (c k : Fin 128) : ridx_main_v24 (ix2 p c) k = ix2 k c :=
  funext fun a => Fin.ext (by match a with | ⟨0, _⟩ => rfl | ⟨1, _⟩ => rfl)
theorem lidx29 (p : Fin 100000) (c k : Fin 128) : lidx_main_v29 (ix2 p c) k = ix2 p k :=
  funext fun a => Fin.ext (by match a with | ⟨0, _⟩ => rfl | ⟨1, _⟩ => rfl)
theorem ridx29 (p : Fin 100000) (c k : Fin 128) : ridx_main_v29 (ix2 p c) k = ix2 k c :=
  funext fun a => Fin.ext (by match a with | ⟨0, _⟩ => rfl | ⟨1, _⟩ => rfl)
theorem idx2526 (p : Fin 100000) (c : Fin 128) : idx_main_v25 (idx_main_v26 (ix2 p c)) = ix1 c :=
  funext fun a => Fin.ext (by match a with | ⟨0, _⟩ => rfl)
theorem idx34 (p : Fin 100000) (c : Fin 128) : idx_main_v34 (ix2 p c) = ix2 p (0 : Fin 1) :=
  funext fun a => Fin.ext (by match a with | ⟨0, _⟩ => rfl | ⟨1, _⟩ => rfl)
theorem idxc2 (p : Fin 100000) : idx_main_call0_v2 (ix2 p (0 : Fin 1)) = ix1 p :=
  funext fun a => Fin.ext (by match a with | ⟨0, _⟩ => rfl)
theorem idxc1 (p : Fin 100000) (k : Fin 128) : idx_main_call0_v1 (ix1 p) k = ix2 p k :=
  funext fun a => Fin.ext (by match a with | ⟨0, _⟩ => rfl | ⟨1, _⟩ => rfl)

/-! ## The first layer -/

/-- The affine part of the first layer at `(p, c)`. -/
theorem lin_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (p : Fin 100000) (c : Fin 128) :
    val_main_v30 (F := Ideal) x0 x1 x2 x3 x4 (ix2 p c)
      = lin (fun k => x0 (ix2 p k)) (fun k => val_main_v22 (F := Ideal) x0 x1 (ix2 p k)) (val_main_v23 (F := Ideal) x2)
          (val_main_v28 (F := Ideal) x4) (fun c' => x3 (ix1 c')) c := by
  rw [val_main_v30_apply, val_main_v27_apply, val_main_v24_apply, val_main_v29_apply, val_main_v26_apply, val_main_v25_apply]
  unfold lin
  simp only [lidx24, ridx24, lidx29, ridx29, idx2526, Ideal.addf_def]

/-- THE FIRST LAYER of the reference is the layer function of `x`, its neighbour mean and the transposed weights. -/
theorem layer_one (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v36 (F := Ideal) x0 x1 x2 x3 x4
      = layer (n := 100000) x0 (val_main_v22 (F := Ideal) x0 x1) (val_main_v23 (F := Ideal) x2) (val_main_v28 (F := Ideal) x4)
          (fun c' => x3 (ix1 c')) := by
  funext i
  obtain ⟨p, q, rfl⟩ : ∃ (p : Fin 100000) (q : Fin 128), i = ix2 p q := ⟨i 0, i 1, eq_ix2 i⟩
  rw [layer_apply]
  unfold rowOut
  rw [val_main_v36_apply, val_main_v35_apply, val_main_v34_apply, val_main_v33_apply, val_main_v31_apply,
    val_main_call0_v2_apply, val_main_call0_v1_apply, val_main_v32_apply, val_main_cst_4_apply, val_main_call1_v0_apply,
    val_main_call1_cst_apply, val_main_call0_cst_apply]
  have hsum : (∑ k : Fin 128, val_main_call0_v0 (F := Ideal) x0 x1 x2 x3 x4 (idx_main_call0_v1 (idx_main_call0_v2 (idx_main_v34 (ix2 p q))) k))
      = ∑ c' : Fin 128, lin (fun k => x0 (ix2 p k)) (fun k => val_main_v22 (F := Ideal) x0 x1 (ix2 p k)) (val_main_v23 (F := Ideal) x2)
            (val_main_v28 (F := Ideal) x4) (fun c' => x3 (ix1 c')) c'
          * lin (fun k => x0 (ix2 p k)) (fun k => val_main_v22 (F := Ideal) x0 x1 (ix2 p k)) (val_main_v23 (F := Ideal) x2)
            (val_main_v28 (F := Ideal) x4) (fun c' => x3 (ix1 c')) c' :=
    Finset.sum_congr rfl fun k _ => by
      rw [idx34, idxc2, idxc1, val_main_call0_v0_apply, lin_apply]
      rfl
  rw [hsum, lin_apply]
  generalize (∑ c' : Fin 128, lin (fun k => x0 (ix2 p k)) (fun k => val_main_v22 (F := Ideal) x0 x1 (ix2 p k)) (val_main_v23 (F := Ideal) x2)
            (val_main_v28 (F := Ideal) x4) (fun c' => x3 (ix1 c')) c'
          * lin (fun k => x0 (ix2 p k)) (fun k => val_main_v22 (F := Ideal) x0 x1 (ix2 p k)) (val_main_v23 (F := Ideal) x2)
            (val_main_v28 (F := Ideal) x4) (fun c' => x3 (ix1 c')) c') = S
  have h0 : (FloatOps.ofBits FTy.f32 0x00000000#32 : Idealize.ShloMosaic.Ideal FTy.f32) + S = S := by
    show Ideal.ofBits .f32 0x00000000#32 + S = S
    rw [Ideal.ofBits_zero_f32, zero_add]
  rw [h0]
  rfl

/-! ## The second layer is the first layer's text at the first layer's result -/

variable {F : FTy → Type} [FloatOps F]

/-- The neighbour mean the second layer takes is the first layer's neighbour mean of the first layer's result. -/
theorem mean_again (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v55 (F := F) x0 x1 x2 x3 x4 = val_main_v22 (F := F) (val_main_v36 (F := F) x0 x1 x2 x3 x4) x1 := rfl

/-- The whole reference: the first layer's function of its own result, the second layer's parameters and the edges. -/
theorem layer_two (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F)) :
    val_main_v69 (F := F) x0 x1 x2 x3 x4 x5 x6 x7
      = val_main_v36 (F := F) (val_main_v36 (F := F) x0 x1 x2 x3 x4) x1 x5 x6 x7 := rfl

end Cert.ReferenceIdeal.RefValue

end
-- ==== Proof.HostSide.lean ====
/-
  The host operations around the two dense calls, and the result of the kernel program.

  Before the first call the host forms the neighbour mean of `x` along the edges (a gather of source rows, a
  scatter-add into destination rows, the same scatter of ones for the in-degree clamped below by one, a division),
  transposes the two weight matrices of the first layer and lays its bias out as a row. Before the second call it does
  the same from the first call's result with the second layer's parameters, over the same edge list. The reference
  performs the same host operations, so the stages of the reference are the vocabulary here: the arrays the first call
  is entered with are the reference's stages of the arguments, the first call's result is the reference's first layer,
  the arrays the second call is entered with are the same stages of that result, and the second call's result — the
  program's — is the reference's last stage.
-/
import proofs.«133926_j60945585930926_1_alg».proof.Proof.Gen.KernelIdeal.Frame
import proofs.«133926_j60945585930926_1_alg».proof.Proof.Gen.ReferenceIdeal.Read
import proofs.«133926_j60945585930926_1_alg».proof.Proof.Region0
import proofs.«133926_j60945585930926_1_alg».proof.Proof.Region1
import proofs.«133926_j60945585930926_1_alg».proof.Proof.RefValue
import Idealize.ShloMosaic.Lib.StableHlo.Run
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg)

/-! ## What the first call is entered with -/

theorem V1_arg0 (c : Dev nD) : V1 m ρ c main_arg0 = m ((c : Thread nD τ).loc main_arg0) := by
  dsimp only [V1, W1, hostOps0]
  after_results_simp <;> rfl

/-- The neighbour mean of `x`. -/
theorem V1_v22 (c : Dev nD) : V1 m ρ c main_v22
    = Cert.ReferenceIdeal.Read.val_main_v22 (F := Ideal) (m ((c : Thread nD τ).loc main_arg0)) (m ((c : Thread nD τ).loc main_arg1)) := by
  dsimp only [V1, W1, hostOps0]
  after_results_simp <;> rfl

theorem V1_v23 (c : Dev nD) : V1 m ρ c main_v23
    = Cert.ReferenceIdeal.Read.val_main_v23 (F := Ideal) (m ((c : Thread nD τ).loc main_arg2)) := by
  dsimp only [V1, W1, hostOps0]
  after_results_simp <;> rfl

theorem V1_v24 (c : Dev nD) : V1 m ρ c main_v24
    = Cert.ReferenceIdeal.Read.val_main_v28 (F := Ideal) (m ((c : Thread nD τ).loc main_arg4)) := by
  dsimp only [V1, W1, hostOps0]
  after_results_simp <;> rfl

theorem V1_v25 (c : Dev nD) : V1 m ρ c main_v25
    = shapeCast S1x128 (m ((c : Thread nD τ).loc main_arg3)) shapeCasts_S128_S1x128 := by
  dsimp only [V1, W1, hostOps0]
  after_results_simp <;> rfl

/-- The bias row the first call stages, read at feature `c'`, is the bias vector there. -/
theorem V1_v25_row (c : Dev nD) : (fun c' : Fin 128 => V1 m ρ c main_v25 (ix2 (0 : Fin 1) c'))
    = fun c' => m ((c : Thread nD τ).loc main_arg3) (ix1 c') := by
  rw [V1_v25]
  funext c'
  exact shapeCast_a_1a_apply _ _ _ _

/-! ## The first call's result -/

/-- The first call's result is the reference's first layer. -/
theorem V2_v26 (c : Dev nD) : V2 m ρ c main_v26
    = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show W2 m ρ c (Proc.devRef .tc main_v26) = _
  rw [show W2 m ρ c (Proc.devRef .tc main_v26) = (dat0 (V1 m ρ) c).arrAt 5 cfg0.N from W2_arr m ρ c 5]
  rw [Cert.KernelIdeal.Region0.final, Cert.ReferenceIdeal.RefValue.layer_one]
  show layer (n := 100000) (V1 m ρ c main_arg0) (V1 m ρ c main_v22) (V1 m ρ c main_v23) (V1 m ρ c main_v24)
    (fun c' => V1 m ρ c main_v25 (ix2 (0 : Fin 1) c')) = _
  rw [V1_arg0, V1_v22, V1_v23, V1_v24, V1_v25_row]

/-! ## What the second call is entered with -/

theorem W2_v1 (c : Dev nD) : W2 m ρ c (Proc.devRef .tc main_v1)
    = Cert.ReferenceIdeal.Read.val_main_v1 (F := Ideal) (m ((c : Thread nD τ).loc main_arg1)) :=
  (W2_of_ne m ρ c main_v1 (by decide)).trans (by dsimp only [W1, hostOps0]; after_results_simp <;> rfl)

theorem W2_v3 (c : Dev nD) : W2 m ρ c (Proc.devRef .tc main_v3)
    = Cert.ReferenceIdeal.Read.val_main_v3 (F := Ideal) (m ((c : Thread nD τ).loc main_arg1)) :=
  (W2_of_ne m ρ c main_v3 (by decide)).trans (by dsimp only [W1, hostOps0]; after_results_simp <;> rfl)

theorem W2_arg5 (c : Dev nD) : W2 m ρ c (Proc.devRef .tc main_arg5) = m ((c : Thread nD τ).loc main_arg5) :=
  (W2_of_ne m ρ c main_arg5 (by decide)).trans (by dsimp only [W1, hostOps0]; after_results_simp <;> rfl)

theorem W2_arg6 (c : Dev nD) : W2 m ρ c (Proc.devRef .tc main_arg6) = m ((c : Thread nD τ).loc main_arg6) :=
  (W2_of_ne m ρ c main_arg6 (by decide)).trans (by dsimp only [W1, hostOps0]; after_results_simp <;> rfl)

theorem W2_arg7 (c : Dev nD) : W2 m ρ c (Proc.devRef .tc main_arg7) = m ((c : Thread nD τ).loc main_arg7) :=
  (W2_of_ne m ρ c main_arg7 (by decide)).trans (by dsimp only [W1, hostOps0]; after_results_simp <;> rfl)

/-- The second call reads the first call's result where the first call left it. -/
theorem V3_v26 (c : Dev nD) : V3 m ρ c main_v26 = V2 m ρ c main_v26 := by
  dsimp only [V3, W3, hostOps1]
  after_results_simp <;> rfl

/-- The neighbour mean of the first call's result, over the same edge list. -/
theorem V3_v45 (c : Dev nD) : V3 m ρ c main_v45
    = Cert.ReferenceIdeal.Read.val_main_v22 (F := Ideal) (V2 m ρ c main_v26) (m ((c : Thread nD τ).loc main_arg1)) := by
  dsimp only [V3, W3, hostOps1]
  after_results_simp
  rw [W2_v1, W2_v3]
  rfl

theorem V3_v46 (c : Dev nD) : V3 m ρ c main_v46
    = Cert.ReferenceIdeal.Read.val_main_v23 (F := Ideal) (m ((c : Thread nD τ).loc main_arg5)) := by
  dsimp only [V3, W3, hostOps1]
  after_results_simp
  rw [W2_arg5]
  rfl

theorem V3_v47 (c : Dev nD) : V3 m ρ c main_v47
    = Cert.ReferenceIdeal.Read.val_main_v28 (F := Ideal) (m ((c : Thread nD τ).loc main_arg7)) := by
  dsimp only [V3, W3, hostOps1]
  after_results_simp
  rw [W2_arg7]
  rfl

theorem V3_v48_row (c : Dev nD) : (fun c' : Fin 128 => V3 m ρ c main_v48 (ix2 (0 : Fin 1) c'))
    = fun c' => m ((c : Thread nD τ).loc main_arg6) (ix1 c') := by
  have e : V3 m ρ c main_v48 = shapeCast S1x128 (m ((c : Thread nD τ).loc main_arg6)) shapeCasts_S128_S1x128 := by
    dsimp only [V3, W3, hostOps1]
    after_results_simp
    rw [W2_arg6]
    rfl
  rw [e]
  funext c'
  exact shapeCast_a_1a_apply _ _ _ _

/-! ## The program's result -/

/-- THE RESULT of the kernel program — what the four segments leave in the second call's output array — is the
    reference's last stage of the arguments. -/
theorem result_eq (c : Dev nD) : W4 m ρ c (Proc.devRef .tc main_v49)
    = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v49) = (dat1 (V3 m ρ) c).arrAt 5 cfg1.N from W4_arr m ρ c 5]
  rw [Cert.KernelIdeal.Region1.final, Cert.ReferenceIdeal.RefValue.layer_two, Cert.ReferenceIdeal.RefValue.layer_one]
  show layer (n := 100000) (V3 m ρ c main_v26) (V3 m ρ c main_v45) (V3 m ρ c main_v46) (V3 m ρ c main_v47)
    (fun c' => V3 m ρ c main_v48 (ix2 (0 : Fin 1) c')) = _
  rw [V3_v45, V3_v26, V2_v26, V3_v46, V3_v47, V3_v48_row]

end Cert.KernelIdeal.HostSide

end
-- ==== Proof.lean ====
/-
  Two stacked GraphSAGE layers (mean aggregation, L2-normalised output, ReLU): a kernel program against its jnp reference.

  Both programs form the neighbour mean of the node features along the edge list with the same host operations (gather
  the source rows, scatter-add them into the destination rows, divide by the in-degree clamped below by one). The
  kernel program then runs one dense call per layer over 25 tiles of 4000 node rows: per tile it multiplies the mean
  rows and the node rows by the two transposed weight matrices (bf16 operands, f32 accumulation: at the ideal instance
  plain sums of products), adds the bias between the two products, divides each row by its L2 norm clamped below by
  the binary32 word nearest 1e-12, and clamps at zero. The reference does the same on the whole arrays with two host
  contractions, a host sum of squares, a host square root, a division and a maximum. The grouping of every sum is the
  same on both sides and the 1e-12 word is the same word, so entry by entry the two results are one expression of the
  arguments over the extended reals (`Sage.rowOut`); nothing is assumed finite.

  The three frames: the kernel program's two are the generated launch over its four segments; the reference's is its
  generated run with the result dropped. The ideal pass rewrote nothing, so the idealization claim is `True`. The
  value claim sets the kernel program's run with its result named (Proof/KernelRun.lean), read back segment by segment to the reference's last stage (Proof/HostSide.lean over
  Proof/Region0.lean, Proof/Region1.lean, Proof/Payload.lean and Proof/RefValue.lean), beside the reference's
  generated run.
-/
import proofs.«133926_j60945585930926_1_alg».proof.Defs
import proofs.«133926_j60945585930926_1_alg».proof.Proof.Gen.Kernel
import proofs.«133926_j60945585930926_1_alg».proof.Proof.Gen.Kernel.Skeleton
import proofs.«133926_j60945585930926_1_alg».proof.Proof.Gen.Kernel.Launch
import proofs.«133926_j60945585930926_1_alg».proof.Proof.Gen.Kernel.Points
import proofs.«133926_j60945585930926_1_alg».proof.Proof.Gen.Kernel.Frame
import proofs.«133926_j60945585930926_1_alg».proof.Proof.Gen.KernelIdeal
import proofs.«133926_j60945585930926_1_alg».proof.Proof.Gen.KernelIdeal.Skeleton
import proofs.«133926_j60945585930926_1_alg».proof.Proof.Gen.KernelIdeal.Launch
import proofs.«133926_j60945585930926_1_alg».proof.Proof.Gen.KernelIdeal.Points
import proofs.«133926_j60945585930926_1_alg».proof.Proof.Gen.KernelIdeal.Frame
import proofs.«133926_j60945585930926_1_alg».proof.Proof.Gen.ReferenceIdeal
import proofs.«133926_j60945585930926_1_alg».proof.Proof.Gen.Pre_finite_inputs
import proofs.«133926_j60945585930926_1_alg».proof.Proof.Gen.ReferenceIdeal.Run
import proofs.«133926_j60945585930926_1_alg».proof.Proof.Gen.ReferenceIdeal.Read
import proofs.«133926_j60945585930926_1_alg».proof.Proof.KernelRun
import proofs.«133926_j60945585930926_1_alg».proof.Proof.HostSide
import Idealize.ShloMosaic.Adequacy
import Idealize.ShloMosaic.Init

noncomputable section

namespace Cert.Proof

open Idealize.ShloMosaic Idealize.ShloMosaic.TcCoe Idealize.SL.Sem

/-- The kernel program's run with its result at the reference's last stage of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v49)
          = Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun r h c => ⟨(h c).1.trans (Cert.KernelIdeal.HostSide.result_eq m ρ c), (h c).2⟩)
    (Cert.KernelIdeal.Result.run (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's last stage of those arguments in
    their result buffers. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v69_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
